-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x3x32x16x32 : Shape := ⟨5, ![4, 3, 32, 16, 32]⟩
abbrev S4x3x16384 : Shape := ⟨3, ![4, 3, 16384]⟩
abbrev S_ : Shape := ⟨0, ![]⟩

class Facts : Prop where
  bcast_S_S4x3x32x16x32 : S_.BroadcastsInDim S4x3x32x16x32 (![] : Fin 0 → Fin S4x3x32x16x32.rank)
  reducesTo_S4x3x32x16x32_S_d0_1_2_3_4 : S4x3x32x16x32.ReducesTo [0, 1, 2, 3, 4] S_
  h_S_ : 0 < S_.numel
  bcast_S_S4x3x16384 : S_.BroadcastsInDim S4x3x16384 (![] : Fin 0 → Fin S4x3x16384.rank)
  reducesTo_S4x3x16384_S_d0_1_2 : S4x3x16384.ReducesTo [0, 1, 2] S_

variable [Facts]

def fn {F : FTy → Type} [FloatOps F] (main_arg0 : FVec F S4x3x32x16x32 .f32) (main_arg1 : FVec F S4x3x16384 .f32) (main_arg2 : FVec F S4x3x32x16x32 .f32) : IVec S_ 1 :=
  let main_v0 : FVec F S4x3x32x16x32 .f32 := Host.absf main_arg0
  let main_cst : FVec F S_ .f32 := constant S_ .f32 0x7F800000#32
  let main_v1 : FVec F S4x3x32x16x32 .f32 := broadcastInDim S4x3x32x16x32 ![] bcast_S_S4x3x32x16x32 main_cst
  let main_v2 : IVec S4x3x32x16x32 1 := cmpf .olt main_v0 main_v1
  let main_c : IVec S_ 1 := constantI S_ 1 1#1
  let main_v3 : IVec S_ 1 := (fun x v => Host.reduce IntOp.andi x v reducesTo_S4x3x32x16x32_S_d0_1_2_3_4 h_S_) main_v2 main_c
  let main_v4 : FVec F S4x3x16384 .f32 := Host.absf main_arg1
  let main_cst_0 : FVec F S_ .f32 := constant S_ .f32 0x7F800000#32
  let main_v5 : FVec F S4x3x16384 .f32 := broadcastInDim S4x3x16384 ![] bcast_S_S4x3x16384 main_cst_0
  let main_v6 : IVec S4x3x16384 1 := cmpf .olt main_v4 main_v5
  let main_c_1 : IVec S_ 1 := constantI S_ 1 1#1
  let main_v7 : IVec S_ 1 := (fun x v => Host.reduce IntOp.andi x v reducesTo_S4x3x16384_S_d0_1_2 h_S_) main_v6 main_c_1
  let main_v8 : IVec S_ 1 := andi main_v3 main_v7
  let main_v9 : FVec F S4x3x32x16x32 .f32 := Host.absf main_arg2
  let main_cst_2 : FVec F S_ .f32 := constant S_ .f32 0x7F800000#32
  let main_v10 : FVec F S4x3x32x16x32 .f32 := broadcastInDim S4x3x32x16x32 ![] bcast_S_S4x3x32x16x32 main_cst_2
  let main_v11 : IVec S4x3x32x16x32 1 := cmpf .olt main_v9 main_v10
  let main_c_3 : IVec S_ 1 := constantI S_ 1 1#1
  let main_v12 : IVec S_ 1 := (fun x v => Host.reduce IntOp.andi x v reducesTo_S4x3x32x16x32_S_d0_1_2_3_4 h_S_) main_v11 main_c_3
  let main_v13 : IVec S_ 1 := andi main_v8 main_v12
  main_v13
-- ==== Kernel.lean ====
abbrev S4x3x32x16x32 : Shape := ⟨5, ![4, 3, 32, 16, 32]⟩
abbrev S4x3x16384 : Shape := ⟨3, ![4, 3, 16384]⟩
abbrev S4x3x32x1x32 : Shape := ⟨5, ![4, 3, 32, 1, 32]⟩
abbrev S4x3x32x32 : Shape := ⟨4, ![4, 3, 32, 32]⟩
abbrev S4x3x1024 : Shape := ⟨3, ![4, 3, 1024]⟩
abbrev S4x16384x3 : Shape := ⟨3, ![4, 16384, 3]⟩
abbrev S_ : Shape := ⟨0, ![]⟩
abbrev S4x16384 : Shape := ⟨2, ![4, 16384]⟩
abbrev S4x16384x1 : Shape := ⟨3, ![4, 16384, 1]⟩
abbrev S4x1024 : Shape := ⟨2, ![4, 1024]⟩
abbrev S4x1x1024 : Shape := ⟨3, ![4, 1, 1024]⟩
abbrev S1x1024x3 : Shape := ⟨3, ![1, 1024, 3]⟩
abbrev S1x3x1024 : Shape := ⟨3, ![1, 3, 1024]⟩
abbrev S1x1024x1 : Shape := ⟨3, ![1, 1024, 1]⟩
abbrev S1x1x1024 : Shape := ⟨3, ![1, 1, 1024]⟩
abbrev S1024x3 : Shape := ⟨2, ![1024, 3]⟩
abbrev S3x1024 : Shape := ⟨2, ![3, 1024]⟩
abbrev S1024x1 : Shape := ⟨2, ![1024, 1]⟩
abbrev S1x1024 : Shape := ⟨2, ![1, 1024]⟩
abbrev S1024x1024 : Shape := ⟨2, ![1024, 1024]⟩
abbrev S1024 : Shape := ⟨1, ![1024]⟩
abbrev S4x3x32x15x32 : Shape := ⟨5, ![4, 3, 32, 15, 32]⟩
abbrev S1x1 : Shape := ⟨2, ![1, 1]⟩
abbrev S5760x32 : Shape := ⟨2, ![5760, 32]⟩
abbrev S5760 : Shape := ⟨1, ![5760]⟩
abbrev S5760x1 : Shape := ⟨2, ![5760, 1]⟩
abbrev S1 : Shape := ⟨1, ![1]⟩

abbrev nBuf : Space → Nat
  | .hbm => 29
  | .vmem => 13
  | .smem => 0
  | _ => 0

abbrev bufTy : (tb : Table) → Fin (tcTables nBuf tb) → BufTy
  | .hbm, ⟨0, _⟩ => ⟨S4x3x32x16x32, .f32⟩
  | .hbm, ⟨1, _⟩ => ⟨S4x3x16384, .f32⟩
  | .hbm, ⟨2, _⟩ => ⟨S4x3x32x16x32, .f32⟩
  | .hbm, ⟨3, _⟩ => ⟨S4x3x32x1x32, .f32⟩
  | .hbm, ⟨4, _⟩ => ⟨S4x3x32x32, .f32⟩
  | .hbm, ⟨5, _⟩ => ⟨S4x3x1024, .f32⟩
  | .hbm, ⟨6, _⟩ => ⟨S4x16384x3, .f32⟩
  | .hbm, ⟨7, _⟩ => ⟨S4x16384x3, .f32⟩
  | .hbm, ⟨8, _⟩ => ⟨S_, .f32⟩
  | .hbm, ⟨9, _⟩ => ⟨S4x16384, .f32⟩
  | .hbm, ⟨10, _⟩ => ⟨S4x16384x1, .f32⟩
  | .hbm, ⟨11, _⟩ => ⟨S4x3x1024, .f32⟩
  | .hbm, ⟨12, _⟩ => ⟨S_, .f32⟩
  | .hbm, ⟨13, _⟩ => ⟨S4x1024, .f32⟩
  | .hbm, ⟨14, _⟩ => ⟨S4x1x1024, .f32⟩
  | .hbm, ⟨15, _⟩ => ⟨S4x16384x1, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S4x3x32x15x32, .f32⟩
  | .hbm, ⟨21, _⟩ => ⟨S4x3x32x15x32, .f32⟩
  | .hbm, ⟨22, _⟩ => ⟨S1x1, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .local _ .vmem, ⟨0, _⟩ => ⟨S1x1024x3, .f32⟩
  | .local _ .vmem, ⟨1, _⟩ => ⟨S1x1024x3, .f32⟩
  | .local _ .vmem, ⟨2, _⟩ => ⟨S1x3x1024, .f32⟩
  | .local _ .vmem, ⟨3, _⟩ => ⟨S1x3x1024, .f32⟩
  | .local _ .vmem, ⟨4, _⟩ => ⟨S1x1024x1, .f32⟩
  | .local _ .vmem, ⟨5, _⟩ => ⟨S1x1024x1, .f32⟩
  | .local _ .vmem, ⟨6, _⟩ => ⟨S1x1x1024, .f32⟩
  | .local _ .vmem, ⟨7, _⟩ => ⟨S1x1x1024, .f32⟩
  | .local _ .vmem, ⟨8, _⟩ => ⟨S1x1024x1, .f32⟩
  | .local _ .vmem, ⟨9, _⟩ => ⟨S1x1024x1, .f32⟩
  | .local _ .vmem, ⟨10, _⟩ => ⟨S4x3x32x15x32, .f32⟩
  | .local _ .vmem, ⟨11, _⟩ => ⟨S4x3x32x15x32, .f32⟩
  | .local _ .vmem, ⟨12, _⟩ => ⟨S1x1, .f32⟩
  | _, _ => ⟨S4x3x32x16x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem1_0 : DmaSem sig := 11
abbrev cc1_sem2_0 : DmaSem sig := 12

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨1, ![1], ![false]⟩

def cc1_transform_0 (i : grid1.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, c0_i32_0.toNat, c0_i32_1.toNat, c0_i32_2.toNat, c0_i32_3.toNat]

def cc1_transform_1 (i : grid1.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, c0_i32_0.toNat, c0_i32_1.toNat, c0_i32_2.toNat, c0_i32_3.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S4x3x32x15x32 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S4x3x32x15x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

class Facts₀ : Prop where
  slices_S4x3x32x16x32_S4x3x32x1x32_0_0_0_15_0 : S4x3x32x16x32.Slices ![0, 0, 0, 15, 0] S4x3x32x1x32
  shapeCasts_S4x3x32x1x32_S4x3x32x32 : S4x3x32x1x32.ShapeCasts S4x3x32x32
  shapeCasts_S4x3x32x32_S4x3x1024 : S4x3x32x32.ShapeCasts S4x3x1024
  transposes_S4x3x16384_S4x16384x3_0_2_1 : S4x3x16384.Transposes [0, 2, 1] S4x16384x3
  reducesTo_S4x16384x3_S4x16384_d2 : S4x16384x3.ReducesTo [2] S4x16384
  h_S_ : 0 < S_.numel
  bcast_S4x16384_S4x16384x1_0_1 : S4x16384.BroadcastsInDim S4x16384x1 (![0, 1] : Fin 2 → Fin S4x16384x1.rank)
  reducesTo_S4x3x1024_S4x1024_d1 : S4x3x1024.ReducesTo [1] S4x1024
  bcast_S4x1024_S4x1x1024_0_2 : S4x1024.BroadcastsInDim S4x1x1024 (![0, 2] : Fin 2 → Fin S4x1x1024.rank)
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  inb_S1x3x1024_S1x3x1024_0_0_0 : ∀ a, (![0, 0, 0] : Fin 3 → Nat) a + S1x3x1024.size a ≤ S1x3x1024.size a
  h_S1x3x1024 : 0 < S1x3x1024.numel
  shapeCasts_S1x3x1024_S3x1024 : S1x3x1024.ShapeCasts S3x1024
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  slices_S1024x3_o0_0_S1024x1 : S1024x3.Slices ![0, 0] S1024x1
  slices_S3x1024_o0_0_S1x1024 : S3x1024.Slices ![0, 0] S1x1024
  broadcasts_S1024x1_S1024x1024 : S1024x1.Broadcasts S1024x1024
  broadcasts_S1x1024_S1024x1024 : S1x1024.Broadcasts S1024x1024
  slices_S1024x3_o0_1_S1024x1 : S1024x3.Slices ![0, 1] S1024x1
  slices_S3x1024_o1_0_S1x1024 : S3x1024.Slices ![1, 0] S1x1024
  slices_S1024x3_o0_2_S1024x1 : S1024x3.Slices ![0, 2] S1024x1
  slices_S3x1024_o2_0_S1x1024 : S3x1024.Slices ![2, 0] S1x1024
  reduces_S1024x1024_S1024 : S1024x1024.Reduces [1] S1024
  shapeCasts_S1024_S1024x1 : S1024.ShapeCasts S1024x1
  shapeCasts_S1024x1_S1x1024x1 : S1024x1.ShapeCasts S1x1024x1
  reducesTo_S4x16384x1_S_d0_1_2 : S4x16384x1.ReducesTo [0, 1, 2] S_
  slices_S4x3x32x16x32_S4x3x32x15x32_0_0_0_0_0 : S4x3x32x16x32.Slices ![0, 0, 0, 0, 0] S4x3x32x15x32
  inb_S4x3x32x15x32_S4x3x32x15x32_0_0_0_0_0 : ∀ a, (![0, 0, 0, 0, 0] : Fin 5 → Nat) a + S4x3x32x15x32.size a ≤ S4x3x32x15x32.size a
  h_S4x3x32x15x32 : 0 < S4x3x32x15x32.numel
  shapeCasts_S4x3x32x15x32_S4x3x32x15x32 : S4x3x32x15x32.ShapeCasts S4x3x32x15x32
  shapeCasts_S4x3x32x15x32_S5760x32 : S4x3x32x15x32.ShapeCasts S5760x32
  reduces_S5760x32_S5760 : S5760x32.Reduces [1] S5760
  shapeCasts_S5760_S5760x1 : S5760.ShapeCasts S5760x1
  reduces_S5760x1_S1 : S5760x1.Reduces [0] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x3.size a ≤ S4x16384x3.size a
  hwx0_0 : ∀ i : grid0.Coords, EltTy.bits .f32 = 32 ∨ (Rect.block (s := S4x16384x3) S1x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x1024.size a ≤ S4x3x1024.size a
  hwx0_1 : ∀ i : grid0.Coords, EltTy.bits .f32 = 32 ∨ (Rect.block (s := S4x3x1024) S1x3x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1.size a ≤ S4x16384x1.size a
  hwx0_2 : ∀ i : grid0.Coords, EltTy.bits .f32 = 32 ∨ (Rect.block (s := S4x16384x1) S1x1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024.size a ≤ S4x1x1024.size a
  hwx0_3 : ∀ i : grid0.Coords, EltTy.bits .f32 = 32 ∨ (Rect.block (s := S4x1x1024) S1x1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x1.size a ≤ S4x16384x1.size a
  hwx0_4 : ∀ i : grid0.Coords, EltTy.bits .f32 = 32 ∨ (Rect.block (s := S4x16384x1) S1x1024x1.size (cc0_transform_4 i) (hinb0_4 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S4x3x32x15x32.size a ≤ S4x3x32x15x32.size a
  hwx1_0 : ∀ i : grid1.Coords, EltTy.bits .f32 = 32 ∨ (Rect.block (s := S4x3x32x15x32) S4x3x32x15x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4x3x32x15x32.size a ≤ S4x3x32x15x32.size a
  hwx1_1 : ∀ i : grid1.Coords, EltTy.bits .f32 = 32 ∨ (Rect.block (s := S4x3x32x15x32) S4x3x32x15x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)

variable [Facts₀]

abbrev win0_0 : Pipeline.Window sig grid0 :=
  Pipeline.Window.ofSpec (Memref.whole main_v3) S1x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x3x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v13) S4x3x32x15x32.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v14) S4x3x32x15x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1x1.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x3x32x16x32 : Shape := ⟨5, ![4, 3, 32, 16, 32]⟩
abbrev S4x3x16384 : Shape := ⟨3, ![4, 3, 16384]⟩
abbrev S4x3x32x1x32 : Shape := ⟨5, ![4, 3, 32, 1, 32]⟩
abbrev S4x3x32x32 : Shape := ⟨4, ![4, 3, 32, 32]⟩
abbrev S4x3x1024 : Shape := ⟨3, ![4, 3, 1024]⟩
abbrev S4x1024x3 : Shape := ⟨3, ![4, 1024, 3]⟩
abbrev S4x3x32x15x32 : Shape := ⟨5, ![4, 3, 32, 15, 32]⟩
abbrev S4x16384x3 : Shape := ⟨3, ![4, 16384, 3]⟩
abbrev S_ : Shape := ⟨0, ![]⟩
abbrev S4x16384 : Shape := ⟨2, ![4, 16384]⟩
abbrev S4x16384x1 : Shape := ⟨3, ![4, 16384, 1]⟩
abbrev S4x1024 : Shape := ⟨2, ![4, 1024]⟩
abbrev S4x1x1024 : Shape := ⟨3, ![4, 1, 1024]⟩
abbrev S4x16384x1024 : Shape := ⟨3, ![4, 16384, 1024]⟩

abbrev nBuf : Space → Nat
  | .hbm => 41
  | .vmem => 0
  | .smem => 0
  | _ => 0

abbrev bufTy : (tb : Table) → Fin (tcTables nBuf tb) → BufTy
  | .hbm, ⟨0, _⟩ => ⟨S4x3x32x16x32, .f32⟩
  | .hbm, ⟨1, _⟩ => ⟨S4x3x16384, .f32⟩
  | .hbm, ⟨2, _⟩ => ⟨S4x3x32x16x32, .f32⟩
  | .hbm, ⟨3, _⟩ => ⟨S4x3x32x1x32, .f32⟩
  | .hbm, ⟨4, _⟩ => ⟨S4x3x32x32, .f32⟩
  | .hbm, ⟨5, _⟩ => ⟨S4x3x1024, .f32⟩
  | .hbm, ⟨6, _⟩ => ⟨S4x1024x3, .f32⟩
  | .hbm, ⟨7, _⟩ => ⟨S4x3x32x15x32, .f32⟩
  | .hbm, ⟨8, _⟩ => ⟨S4x16384x3, .f32⟩
  | .hbm, ⟨9, _⟩ => ⟨S4x16384x3, .f32⟩
  | .hbm, ⟨10, _⟩ => ⟨S_, .f32⟩
  | .hbm, ⟨11, _⟩ => ⟨S4x16384, .f32⟩
  | .hbm, ⟨12, _⟩ => ⟨S4x16384x1, .f32⟩
  | .hbm, ⟨13, _⟩ => ⟨S4x1024x3, .f32⟩
  | .hbm, ⟨14, _⟩ => ⟨S_, .f32⟩
  | .hbm, ⟨15, _⟩ => ⟨S4x1024, .f32⟩
  | .hbm, ⟨16, _⟩ => ⟨S4x1x1024, .f32⟩
  | .hbm, ⟨17, _⟩ => ⟨S4x16384x1024, .f32⟩
  | .hbm, ⟨18, _⟩ => ⟨S4x16384x1024, .f32⟩
  | .hbm, ⟨19, _⟩ => ⟨S4x16384x1024, .f32⟩
  | .hbm, ⟨20, _⟩ => ⟨S4x16384x1024, .f32⟩
  | .hbm, ⟨21, _⟩ => ⟨S_, .f32⟩
  | .hbm, ⟨22, _⟩ => ⟨S4x16384x1024, .f32⟩
  | .hbm, ⟨23, _⟩ => ⟨S4x16384x1024, .f32⟩
  | .hbm, ⟨24, _⟩ => ⟨S4x16384x1024, .f32⟩
  | .hbm, ⟨25, _⟩ => ⟨S_, .f32⟩
  | .hbm, ⟨26, _⟩ => ⟨S4x16384, .f32⟩
  | .hbm, ⟨27, _⟩ => ⟨S4x3x32x15x32, .f32⟩
  | .hbm, ⟨28, _⟩ => ⟨S4x3x32x15x32, .f32⟩
  | .hbm, ⟨29, _⟩ => ⟨S4x3x32x15x32, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | _, _ => ⟨S4x3x32x16x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_cst_6 : Ref sig .tc := ⟨.hbm, 36, rfl⟩
abbrev main_v26 : Ref sig .tc := ⟨.hbm, 37, rfl⟩
abbrev main_cst_7 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]

class Facts₀ : Prop where
  slices_S4x3x32x16x32_S4x3x32x1x32_0_0_0_15_0 : S4x3x32x16x32.Slices ![0, 0, 0, 15, 0] S4x3x32x1x32
  shapeCasts_S4x3x32x1x32_S4x3x32x32 : S4x3x32x1x32.ShapeCasts S4x3x32x32
  shapeCasts_S4x3x32x32_S4x3x1024 : S4x3x32x32.ShapeCasts S4x3x1024
  transposes_S4x3x1024_S4x1024x3_0_2_1 : S4x3x1024.Transposes [0, 2, 1] S4x1024x3
  slices_S4x3x32x16x32_S4x3x32x15x32_0_0_0_0_0 : S4x3x32x16x32.Slices ![0, 0, 0, 0, 0] S4x3x32x15x32
  transposes_S4x3x16384_S4x16384x3_0_2_1 : S4x3x16384.Transposes [0, 2, 1] S4x16384x3
  reducesTo_S4x16384x3_S4x16384_d2 : S4x16384x3.ReducesTo [2] S4x16384
  h_S_ : 0 < S_.numel
  bcast_S4x16384_S4x16384x1_0_1 : S4x16384.BroadcastsInDim S4x16384x1 (![0, 1] : Fin 2 → Fin S4x16384x1.rank)
  reducesTo_S4x1024x3_S4x1024_d2 : S4x1024x3.ReducesTo [2] S4x1024
  bcast_S4x1024_S4x1x1024_0_2 : S4x1024.BroadcastsInDim S4x1x1024 (![0, 2] : Fin 2 → Fin S4x1x1024.rank)
  bcast_S4x16384x1_S4x16384x1024_0_1_2 : S4x16384x1.BroadcastsInDim S4x16384x1024 (![0, 1, 2] : Fin 3 → Fin S4x16384x1024.rank)
  bcast_S4x1x1024_S4x16384x1024_0_1_2 : S4x1x1024.BroadcastsInDim S4x16384x1024 (![0, 1, 2] : Fin 3 → Fin S4x16384x1024.rank)
  bcast_S_S4x16384x1024 : S_.BroadcastsInDim S4x16384x1024 (![] : Fin 0 → Fin S4x16384x1024.rank)
  reducesTo_S4x16384x1024_S4x16384_d2 : S4x16384x1024.ReducesTo [2] S4x16384
  reducesTo_S4x3x32x15x32_S_d0_1_2_3_4 : S4x3x32x15x32.ReducesTo [0, 1, 2, 3, 4] S_
  reducesTo_S4x16384_S_d0_1 : S4x16384.ReducesTo [0, 1] S_
  dot_S4x16384x3_S4x1024x3_S4x16384x1024_2_2_1_1_0_0_wf : DotDims.WF S4x16384x3 S4x1024x3 S4x16384x1024 [2] [2] [1] [1] [0] [0]

variable [Facts₀]

def dot_S4x16384x3_S4x1024x3_S4x16384x1024_2_2_1_1_0_0 : DotDims S4x16384x3 S4x1024x3 S4x16384x1024 where
  lhsContracting := [2]
  rhsContracting := [2]
  lhsNonContracting := [1]
  rhsNonContracting := [1]
  lhsBatch := [0]
  rhsBatch := [0]
  wf := dot_S4x16384x3_S4x1024x3_S4x16384x1024_2_2_1_1_0_0_wf

class Facts : Prop extends Facts₀ where

variable [Facts]
-- ==== Proof.KernelRun.lean ====
/-
  The idealized kernel program's run with its RESULT named. The program is five segments: host operations, the
  nearest-point region, host operations, the squared-difference region, host operations. Along them the buffer
  contents are a fold from the launch memory (the generated `Gen.W0 … Gen.W5`: a stretch of host operations applies
  them, a region replaces its output array by what its write-backs leave). Every weakly fair execution terminates with
  EVERY unscoped buffer at the last fold `Gen.W5`; here that is read at the result buffer and at the three arguments.
-/
import proofs.«102066_j2834678415375_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents `Gen.W5` and the three argument arrays as launched. -/
theorem run_result : θ_run defs (onTc (τ := τ) (main (F := F))) ⟨m, fun _ => 0, ρ⟩ (fun r => ∀ c : Dev nD,
      r.2.mem ((c.tc : Thread nD τ).loc main_v19) = W5 m ρ c (Proc.devRef .tc main_v19)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v19 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c)⟩)

end Cert.KernelIdeal.Whole

end
-- ==== Proof.LibColumnCast.lean ====
/-
  A vector cast to a one-column matrix, read at an entry.

  The row-major position of entry (i, 0) of an [a, 1] matrix is i · 1 + 0 = i, the position of entry i of the
  [a] vector it was cast from; so the cast reads the vector's entry i there. (The companion forms for a leading
  unit axis, [a] → [1, a] and back, are the library's `shapeCast_a_1a_apply` and `shapeCast_1a_a_apply`.)
-/
import Idealize.ShloMosaic.Lib.ValueLayout

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Idealize.ShloMosaic.ValueIdx
-- ==== Proof.LibColumnBroadcast.lean ====
/-
  One column broadcast over many.

  An [a, 1] matrix broadcast to [a, b] repeats its one column: entry (p, c) of the result is entry (p, 0) of the
  operand, whatever the column c. (The companion form for one ROW, [1, b] → [a, b], is the library's
  `broadcastTo_1b_ab_apply`.)
-/
import Idealize.ShloMosaic.Lib.ValueLayout

namespace Idealize.ShloMosaic.ValueIdx

open Idealize.ShloMosaic

variable {α : Type}

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.NearestPayload.lean ====
/-
  The nearest-point body, entry by entry.

  The body takes a block of 1024 points P (as [1, 1024, 3]: row r holds the point's three coordinates), the mesh points T
  of the batch (as [1, 3, 1024]: column n holds a mesh point's three coordinates), the points' squared norms pn
  ([1, 1024, 1]) and the mesh points' squared norms tn ([1, 1, 1024]). For row r and column n it forms the expanded squared
  distance  (pn r + tn n) − 2 · ((P r 0 · T 0 n + P r 1 · T 1 n) + P r 2 · T 2 n)  and stores, at row r, the minimum
  over the 1024 columns n, started from +∞. Every slice, cast and broadcast of the body is read here at an entry.
-/
import proofs.«102066_j2834678415375_1_alg».proof.Proof.Gen.KernelIdeal.Skeleton
import proofs.«102066_j2834678415375_1_alg».proof.Proof.LibColumnCast
import proofs.«102066_j2834678415375_1_alg».proof.Proof.LibColumnBroadcast
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Nearest

open Cert.KernelIdeal Cert.KernelIdeal.Gen Idealize.ShloMosaic Idealize.ShloMosaic.ValueIdx

/-- The expanded squared distance from row `r` of the point block to column `n` of the mesh block. -/
def sqBlock (x0 : FVec Ideal S1x1024x3 .f32) (x1 : FVec Ideal S1x3x1024 .f32) (x2 : FVec Ideal S1x1024x1 .f32)
    (x3 : FVec Ideal S1x1x1024 .f32) (r n : Fin 1024) : EReal :=
  (x2 (ix3 (0 : Fin 1) r (0 : Fin 1)) + x3 (ix3 (0 : Fin 1) (0 : Fin 1) n))
    - Ideal.ofBits .f32 0x40000000#32
      * ((x0 (ix3 (0 : Fin 1) r (0 : Fin 3)) * x1 (ix3 (0 : Fin 1) (0 : Fin 3) n)
          + x0 (ix3 (0 : Fin 1) r (1 : Fin 3)) * x1 (ix3 (0 : Fin 1) (1 : Fin 3) n))
        + x0 (ix3 (0 : Fin 1) r (2 : Fin 3)) * x1 (ix3 (0 : Fin 1) (2 : Fin 3) n))

/-- Column `d` of the point block, spread over the 1024 columns, reads the point's coordinate `d`. -/
theorem col_read (x0 : FVec Ideal S1x1024x3 .f32) (o : Nat) (d : Fin 3) (hd : d.val = o)
    (h : S1024x3.Slices ![0, o] S1024x1) (r n : Fin 1024) :
    broadcastTo S1024x1024 (extractStridedSlice S1024x1 ![0, o] (shapeCast S1024x3 x0 shapeCasts_S1x1024x3_S1024x3) h)
      broadcasts_S1024x1_S1024x1024 (ix2 r n) = x0 (ix3 (0 : Fin 1) r d) :=
  (broadcastTo_a1_ab_apply _ _ r n).trans
    ((slice2_axis1_apply o _ h r (0 : Fin 1) d (by rw [hd]; rfl)).trans (shapeCast_1ab_ab_apply _ _ r d))

/-- Row `d` of the mesh block, spread over the 1024 rows, reads the mesh point's coordinate `d`. -/
theorem row_read (x1 : FVec Ideal S1x3x1024 .f32) (o : Nat) (d : Fin 3) (hd : d.val = o)
    (h : S3x1024.Slices ![o, 0] S1x1024) (r n : Fin 1024) :
    broadcastTo S1024x1024 (extractStridedSlice S1x1024 ![o, 0] (shapeCast S3x1024 x1 shapeCasts_S1x3x1024_S3x1024) h)
      broadcasts_S1x1024_S1024x1024 (ix2 r n) = x1 (ix3 (0 : Fin 1) d n) :=
  (broadcastTo_1b_ab_apply _ _ r n).trans
    ((slice2_axis0_apply o _ h (0 : Fin 1) n d (by rw [hd]; rfl)).trans (shapeCast_1ab_ab_apply _ _ d n))

/-- The points' squared norms, spread over the columns, read the row's norm. -/
theorem pn_read (x2 : FVec Ideal S1x1024x1 .f32) (r n : Fin 1024) :
    broadcastTo S1024x1024 (shapeCast S1024x1 x2 shapeCasts_S1x1024x1_S1024x1) broadcasts_S1024x1_S1024x1024 (ix2 r n)
      = x2 (ix3 (0 : Fin 1) r (0 : Fin 1)) :=
  (broadcastTo_a1_ab_apply _ _ r n).trans (shapeCast_1ab_ab_apply _ _ r (0 : Fin 1))

/-- The mesh points' squared norms, spread over the rows, read the column's norm. -/
theorem tn_read (x3 : FVec Ideal S1x1x1024 .f32) (r n : Fin 1024) :
    broadcastTo S1024x1024 (shapeCast S1x1024 x3 shapeCasts_S1x1x1024_S1x1024) broadcasts_S1x1024_S1024x1024 (ix2 r n)
      = x3 (ix3 (0 : Fin 1) (0 : Fin 1) n) :=
  (broadcastTo_1b_ab_apply _ _ r n).trans (shapeCast_1ab_ab_apply _ _ (0 : Fin 1) n)

/-- Row `r` of the [1024, 1024] table with column `n` put back is entry (r, n). -/
theorem lift_row (r n : Fin 1024) : reduces_S1024x1024_S1024.lift (ix1 r) n = ix2 r n := by
  funext c; apply Fin.ext
  fin_cases c <;> rfl

/-- A fold over the columns of row `r` of a [1024, 1024] table, with the entries named by their coordinates. -/
theorem fold_rows (g : S1024x1024.Idx → EReal) (init : EReal) (r : Fin 1024) :
    (Finset.univ : Finset (Fin (S1024x1024.size 1))).fold min init (g ∘ reduces_S1024x1024_S1024.lift (ix1 r))
      = (Finset.univ : Finset (Fin 1024)).fold min init (fun n => g (ix2 r n)) :=
  congrArg (fun f => Finset.fold min init f (Finset.univ : Finset (Fin 1024)))
    (funext fun (n : Fin 1024) => congrArg g (lift_row r n))

/-- WHAT THE BODY STORES at row `r`: the minimum over the columns, from +∞, of the expanded squared distance. -/
theorem pay_apply (x0 : FVec Ideal S1x1024x3 .f32) (x1 : FVec Ideal S1x3x1024 .f32) (x2 : FVec Ideal S1x1024x1 .f32)
    (x3 : FVec Ideal S1x1x1024 .f32) (u : Fin 1) (r : Fin 1024) (w : Fin 1) :
    k0_pay1 (F := Ideal) x0 x1 x2 x3 (ix3 u r w)
      = (Finset.univ : Finset (Fin 1024)).fold min (Ideal.ofBits .f32 0x7F800000#32) (fun n => sqBlock x0 x1 x2 x3 r n) := by
  unfold k0_pay1
  dsimp only
  refine (shapeCast_ab_1ab_apply _ _ u r w).trans ?_
  refine (shapeCast_a_a1_apply _ _ r w).trans ?_
  refine (multiReduction_minimumf_eq_fold _ _ _ _ _ _).trans ?_
  refine (Shape.Reduces.fold_filter_drop_single reduces_S1024x1024_S1024 _ _ _ (ix1 r)).trans ?_
  refine (fold_rows _ _ r).trans ?_
  refine congrArg (fun f => Finset.fold min (Ideal.ofBits .f32 0x7F800000#32) f (Finset.univ : Finset (Fin 1024))) (funext fun (n : Fin 1024) => ?_)
  unfold sqBlock
  exact congrArg₂ (· - ·)
    (congrArg₂ (· + ·) (pn_read x2 r n) (tn_read x3 r n))
    (congrArg (Ideal.ofBits .f32 0x40000000#32 * ·)
      (congrArg₂ (· + ·)
        (congrArg₂ (· + ·)
          (congrArg₂ (· * ·) (col_read x0 0 (0 : Fin 3) rfl _ r n) (row_read x1 0 (0 : Fin 3) rfl _ r n))
          (congrArg₂ (· * ·) (col_read x0 1 (1 : Fin 3) rfl _ r n) (row_read x1 1 (1 : Fin 3) rfl _ r n)))
        (congrArg₂ (· * ·) (col_read x0 2 (2 : Fin 3) rfl _ r n) (row_read x1 2 (2 : Fin 3) rfl _ r n))))

end Cert.KernelIdeal.Nearest

end
-- ==== Proof.NearestArray.lean ====
/-
  The nearest-point region's output array.

  The grid is 4 × 16: point (b, g) handles batch b and the g-th run of 1024 points. The point block, its norms and the
  output block are rows [1024·g, 1024·g + 1024) of batch b; the mesh block and its norms are all of batch b. So row r of
  the output block is row 1024·g + r of the [4, 16384, 1] output array, and what is stored there is the minimum over the
  1024 mesh points n, from +∞, of the expanded squared distance
    (pn b p + tn b n) − 2 · ((P b p 0 · T b 0 n + P b p 1 · T b 1 n) + P b p 2 · T b 2 n),   p = 1024·g + r,
  of the four input arrays as the region found them. The 64 blocks tile the array, so this describes every entry.
-/
import proofs.«102066_j2834678415375_1_alg».proof.Proof.Gen.KernelIdeal.Frame
import proofs.«102066_j2834678415375_1_alg».proof.Proof.NearestPayload

set_option maxRecDepth 16384

noncomputable section

namespace Cert.KernelIdeal.Nearest

open Cert.KernelIdeal Cert.KernelIdeal.Gen Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-- The expanded squared distance from point `p` of batch `b` to mesh point `n` of the same batch. -/
def sqArr (pcp : S4x16384x3.Idx → EReal) (top : S4x3x1024.Idx → EReal) (pn : S4x16384x1.Idx → EReal)
    (tn : S4x1x1024.Idx → EReal) (b : Fin 4) (p : Fin 16384) (n : Fin 1024) : EReal :=
  (pn (ix3 b p (0 : Fin 1)) + tn (ix3 b (0 : Fin 1) n))
    - Ideal.ofBits .f32 0x40000000#32
      * ((pcp (ix3 b p (0 : Fin 3)) * top (ix3 b (0 : Fin 3) n)
          + pcp (ix3 b p (1 : Fin 3)) * top (ix3 b (1 : Fin 3) n))
        + pcp (ix3 b p (2 : Fin 3)) * top (ix3 b (2 : Fin 3) n))

/-- The least expanded squared distance from point `p` of batch `b` to the batch's mesh points, from +∞. -/
def nearest (pcp : S4x16384x3.Idx → EReal) (top : S4x3x1024.Idx → EReal) (pn : S4x16384x1.Idx → EReal)
    (tn : S4x1x1024.Idx → EReal) (b : Fin 4) (p : Fin 16384) : EReal :=
  (Finset.univ : Finset (Fin 1024)).fold min (Ideal.ofBits .f32 0x7F800000#32) (fun n => sqArr pcp top pn tn b p n)

/-- The [4, 16384, 1] array of those minima. -/
def nearestArr (pcp : S4x16384x3.Idx → EReal) (top : S4x3x1024.Idx → EReal) (pn : S4x16384x1.Idx → EReal)
    (tn : S4x1x1024.Idx → EReal) : S4x16384x1.Idx → EReal :=
  fun i => nearest pcp top pn tn ⟨(i 0).val, (i 0).isLt⟩ ⟨(i 1).val, (i 1).isLt⟩

theorem nearestArr_ix3 (pcp : S4x16384x3.Idx → EReal) (top : S4x3x1024.Idx → EReal) (pn : S4x16384x1.Idx → EReal)
    (tn : S4x1x1024.Idx → EReal) (b : Fin 4) (p : Fin 16384) (w : Fin 1) :
    nearestArr pcp top pn tn (ix3 b p w) = nearest pcp top pn tn b p := rfl

theorem zeros3 : (![0, 0, 0] : Fin 3 → Nat) = fun _ => 0 := funext fun a => by fin_cases a <;> rfl

/-- The printed index maps, decided over the 64 grid points: which windows move with the output window on which axis,
    which stay at block 0, and the output's block indices' ranges. -/
theorem index_facts : ∀ t : Fin cfg0.N,
    win0_0.index t (0 : Fin 3) = win0_4.index t (0 : Fin 3) ∧ win0_0.index t (1 : Fin 3) = win0_4.index t (1 : Fin 3)
    ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 3) = win0_4.index t (0 : Fin 3) ∧ win0_2.index t (1 : Fin 3) = win0_4.index t (1 : Fin 3)
    ∧ win0_2.index t (2 : Fin 3) = 0
    ∧ win0_3.index t (0 : Fin 3) = win0_4.index t (0 : Fin 3) ∧ win0_3.index t (1 : Fin 3) = 0 ∧ win0_3.index t (2 : Fin 3) = 0
    ∧ win0_4.index t (0 : Fin 3) ≤ 3 ∧ win0_4.index t (1 : Fin 3) ≤ 15 ∧ win0_4.index t (2 : Fin 3) = 0 :=
  (by decide +kernel : ∀ t : Fin grid0.N, _)

/-- Every (batch, run of 1024 points) is some grid point's output block. -/
theorem index_onto : ∀ (q0 : Fin 4) (q1 : Fin 16), ∃ t : Fin cfg0.N, win0_4.index t = ![q0.val, q1.val, 0] :=
  (by decide +kernel : ∀ (q0 : Fin 4) (q1 : Fin 16), ∃ t : Fin grid0.N, win0_4.index t = ![q0.val, q1.val, 0])

section Reads
variable (c : Dev nD) (t : Fin cfg0.N) (B : Fin 4) (Pp : Fin 16384) (r : Fin 1024)
variable (hB : B.val = win0_4.index t (0 : Fin 3)) (hP : Pp.val = win0_4.index t (1 : Fin 3) * 1024 + r.val)
include hB hP

/-- Row `r`, coordinate `d` of the point block is the point array at (b, p, d). -/
theorem read_points (d : Fin 3) : iblk0 V c 0 t (ix3 (0 : Fin 1) r d) = V c main_v3 (ix3 B Pp d) := by
  obtain ⟨e0, e1, e2, -⟩ := index_facts t
  show V c main_v3 (((cfg0.win 0).blk t).view.emb (ix3 (0 : Fin 1) r d)) = V c main_v3 (ix3 B Pp d)
  refine congrArg (V c main_v3) (funext fun a => Fin.ext ?_)
  match a with
  | ⟨0, _⟩ => show win0_0.index t (0 : Fin 3) * 1 + 1 * (0 : Fin 1).val = B.val; have : ((0 : Fin 1) : Nat) = 0 := rfl; omega
  | ⟨1, _⟩ => show win0_0.index t (1 : Fin 3) * 1024 + 1 * r.val = Pp.val; omega
  | ⟨2, _⟩ => show win0_0.index t (2 : Fin 3) * 3 + 1 * d.val = d.val; omega

/-- Coordinate `d`, column `n` of the mesh block is the mesh array at (b, d, n). -/
theorem read_mesh (d : Fin 3) (n : Fin 1024) : iblk0 V c 1 t (ix3 (0 : Fin 1) d n) = V c main_v2 (ix3 B d n) := by
  obtain ⟨-, -, -, e0, e1, e2, -⟩ := index_facts t
  show V c main_v2 (((cfg0.win 1).blk t).view.emb (ix3 (0 : Fin 1) d n)) = V c main_v2 (ix3 B d n)
  refine congrArg (V c main_v2) (funext fun a => Fin.ext ?_)
  match a with
  | ⟨0, _⟩ => show win0_1.index t (0 : Fin 3) * 1 + 1 * (0 : Fin 1).val = B.val; have : ((0 : Fin 1) : Nat) = 0 := rfl; omega
  | ⟨1, _⟩ => show win0_1.index t (1 : Fin 3) * 3 + 1 * d.val = d.val; omega
  | ⟨2, _⟩ => show win0_1.index t (2 : Fin 3) * 1024 + 1 * n.val = n.val; omega

/-- Row `r` of the points' norm block is the norm array at (b, p, 0). -/
theorem read_pnorm : iblk0 V c 2 t (ix3 (0 : Fin 1) r (0 : Fin 1)) = V c main_v6 (ix3 B Pp (0 : Fin 1)) := by
  obtain ⟨-, -, -, -, -, -, e0, e1, e2, -⟩ := index_facts t
  show V c main_v6 (((cfg0.win 2).blk t).view.emb (ix3 (0 : Fin 1) r (0 : Fin 1))) = V c main_v6 (ix3 B Pp (0 : Fin 1))
  refine congrArg (V c main_v6) (funext fun a => Fin.ext ?_)
  match a with
  | ⟨0, _⟩ => show win0_2.index t (0 : Fin 3) * 1 + 1 * (0 : Fin 1).val = B.val; have : ((0 : Fin 1) : Nat) = 0 := rfl; omega
  | ⟨1, _⟩ => show win0_2.index t (1 : Fin 3) * 1024 + 1 * r.val = Pp.val; omega
  | ⟨2, _⟩ => show win0_2.index t (2 : Fin 3) * 1 + 1 * (0 : Fin 1).val = (0 : Fin 1).val; have : ((0 : Fin 1) : Nat) = 0 := rfl; omega

/-- Column `n` of the mesh points' norm block is the norm array at (b, 0, n). -/
theorem read_mnorm (n : Fin 1024) : iblk0 V c 3 t (ix3 (0 : Fin 1) (0 : Fin 1) n) = V c main_v9 (ix3 B (0 : Fin 1) n) := by
  obtain ⟨-, -, -, -, -, -, -, -, -, e0, e1, e2, -⟩ := index_facts t
  show V c main_v9 (((cfg0.win 3).blk t).view.emb (ix3 (0 : Fin 1) (0 : Fin 1) n)) = V c main_v9 (ix3 B (0 : Fin 1) n)
  refine congrArg (V c main_v9) (funext fun a => Fin.ext ?_)
  match a with
  | ⟨0, _⟩ => show win0_3.index t (0 : Fin 3) * 1 + 1 * (0 : Fin 1).val = B.val; have : ((0 : Fin 1) : Nat) = 0 := rfl; omega
  | ⟨1, _⟩ => show win0_3.index t (1 : Fin 3) * 1 + 1 * (0 : Fin 1).val = (0 : Fin 1).val; have : ((0 : Fin 1) : Nat) = 0 := rfl; omega
  | ⟨2, _⟩ => show win0_3.index t (2 : Fin 3) * 1024 + 1 * n.val = n.val; omega

/-- Row `r` of the output block sits in the output array at (b, p, 0). -/
theorem out_emb (u w : Fin 1) : ((cfg0.win 4).blk t).view.emb (ix3 u r w) = ix3 B Pp (0 : Fin 1) := by
  obtain ⟨-, -, -, -, -, -, -, -, -, -, -, -, -, -, e2⟩ := index_facts t
  funext a; apply Fin.ext
  match a with
  | ⟨0, _⟩ => show win0_4.index t (0 : Fin 3) * 1 + 1 * u.val = B.val; have := u.isLt; omega
  | ⟨1, _⟩ => show win0_4.index t (1 : Fin 3) * 1024 + 1 * r.val = Pp.val; omega
  | ⟨2, _⟩ => show win0_4.index t (2 : Fin 3) * 1 + 1 * w.val = (0 : Fin 1).val; have := w.isLt; have : ((0 : Fin 1) : Nat) = 0 := rfl; omega

/-- The block's expanded squared distance at (r, n) is the arrays' at (b, p, n). -/
theorem sqBlock_eq (n : Fin 1024) :
    sqBlock (iblk0 V c 0 t) (iblk0 V c 1 t) (iblk0 V c 2 t) (iblk0 V c 3 t) r n
      = sqArr (V c main_v3) (V c main_v2) (V c main_v6) (V c main_v9) B Pp n := by
  unfold sqBlock sqArr
  exact congrArg₂ (· - ·)
    (congrArg₂ (· + ·) (read_pnorm V c t B Pp r hB hP) (read_mnorm V c t B Pp r hB hP n))
    (congrArg (Ideal.ofBits .f32 0x40000000#32 * ·)
      (congrArg₂ (· + ·)
        (congrArg₂ (· + ·)
          (congrArg₂ (· * ·) (read_points V c t B Pp r hB hP (0 : Fin 3)) (read_mesh V c t B Pp r hB hP (0 : Fin 3) n))
          (congrArg₂ (· * ·) (read_points V c t B Pp r hB hP (1 : Fin 3)) (read_mesh V c t B Pp r hB hP (1 : Fin 3) n)))
        (congrArg₂ (· * ·) (read_points V c t B Pp r hB hP (2 : Fin 3)) (read_mesh V c t B Pp r hB hP (2 : Fin 3) n))))

end Reads

/-- WHAT POINT `t` WRITES BACK is its block of `nearestArr` of the four input arrays as the region found them. -/
theorem flushed_eq (c : Dev nD) (t : Fin cfg0.N) :
    (dat0 V c).flushed 4 t
      = ((cfg0.win 4).blk t).view.read (Elt Ideal) (nearestArr (V c main_v3) (V c main_v2) (V c main_v6) (V c main_v9)) := by
  show (cfg0.win 4).cut (grid0.coords t) ((dat0 V c).after 4 t) = _
  rw [after0_4]
  unfold out0_4
  rw [View.canon_unit_zero zeros3]
  simp only [View.ld_unit_zero (S := S1x1024x3) zeros3, View.ld_unit_zero (S := S1x3x1024) zeros3,
    View.ld_unit_zero (S := S1x1024x1) zeros3, View.ld_unit_zero (S := S1x1x1024) zeros3]
  funext y
  obtain ⟨u, r, w, rfl⟩ : ∃ (u : Fin 1) (r : Fin 1024) (w : Fin 1), y = ix3 u r w := ⟨y 0, y 1, y 2, eq_ix3 y⟩
  obtain ⟨-, -, -, -, -, -, -, -, -, -, -, -, b0, b1, -⟩ := index_facts t
  have hr : r.val < 1024 := r.isLt
  let B : Fin 4 := ⟨win0_4.index t (0 : Fin 3), by omega⟩
  let Pp : Fin 16384 := ⟨win0_4.index t (1 : Fin 3) * 1024 + r.val, by omega⟩
  show k0_pay1 (iblk0 V c 0 t) (iblk0 V c 1 t) (iblk0 V c 2 t) (iblk0 V c 3 t) (ix3 u r w)
    = nearestArr (V c main_v3) (V c main_v2) (V c main_v6) (V c main_v9) (((cfg0.win 4).blk t).view.emb (ix3 u r w))
  refine (pay_apply _ _ _ _ u r w).trans ?_
  refine Eq.trans ?_ (congrArg (nearestArr (V c main_v3) (V c main_v2) (V c main_v6) (V c main_v9)) (out_emb t B Pp r rfl rfl u w)).symm
  refine Eq.trans ?_ (nearestArr_ix3 _ _ _ _ B Pp (0 : Fin 1)).symm
  unfold nearest
  exact congrArg (fun f => Finset.fold min (Ideal.ofBits .f32 0x7F800000#32) f (Finset.univ : Finset (Fin 1024)))
    (funext fun n => sqBlock_eq V c t B Pp r rfl rfl n)

/-- An index of the output array is in point `t`'s block iff each coordinate is in the block's range on its axis. -/
theorem mem_blk (t : Fin cfg0.N) (i : S4x16384x1.Idx) :
    i ∈ ((cfg0.win 4).blk t).view.set ↔ ∀ a : Fin 3, win0_4.index t a * S1x1024x1.size a ≤ (i a).val ∧ (i a).val < win0_4.index t a * S1x1024x1.size a + S1x1024x1.size a := by
  show i ∈ ((View.whole main_v10).slice (win0_4.rect t)).set ↔ _
  rw [View.set_slice_whole, Rect.mem_set_unit]
  exact Iff.rfl

/-- The 64 output blocks cover the [4, 16384, 1] array: entry (b, p, 0) is in the block of batch b, run p / 1024. -/
theorem cover (i : S4x16384x1.Idx) : ∃ t : Fin cfg0.N, (cfg0.win 4).flush t = true ∧ i ∈ ((cfg0.win 4).blk t).view.set := by
  have hi0 : (i 0).val < 4 := (i 0).isLt
  have hi1 : (i 1).val < 16384 := (i 1).isLt
  have hi2 : (i 2).val < 1 := (i 2).isLt
  obtain ⟨t, ht⟩ := index_onto ⟨(i 0).val, hi0⟩ ⟨(i 1).val / 1024, by omega⟩
  have q0 : win0_4.index t (0 : Fin 3) = (i 0).val := congrFun ht 0
  have q1 : win0_4.index t (1 : Fin 3) = (i 1).val / 1024 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 1 ≤ (i 2).val ∧ (i 2).val < win0_4.index t (2 : Fin 3) * 1 + 1; omega

/-- THE OUTPUT ARRAY after the region: the array of nearest expanded squared distances of the four input arrays as the
    region found them. -/
theorem final (c : Dev nD) :
    (dat0 V c).arrAt 4 cfg0.N = nearestArr (V c main_v3) (V c main_v2) (V c main_v6) (V c main_v9) :=
  (dat0 V c).arrAt_eq_of_cover 4 _ (fun t _ => flushed_eq V c t) cover

end Cert.KernelIdeal.Nearest

end
-- ==== Proof.LibSumCasts.lean ====
/-
  Totals that survive a re-indexing.

  A shape cast only re-labels the entries of an array (same entries, same row-major order), so the sum of all entries
  is unchanged. An add-reduction over some axes puts, at each kept index, the sum of the entries that project to it;
  the fibres of the projection partition the source, so summing the reduced array over all kept indices gives back
  the sum of all entries of the source. Both hold in any commutative monoid — in particular on the extended reals,
  with no finiteness assumption.
-/
import Idealize.ShloMosaic.PureOps.Ideal.Laws

namespace Idealize.ShloMosaic.ValueIdx

open Idealize.ShloMosaic

/-- The entries of a shape-cast array sum to the sum of the entries of the array it was cast from. -/
theorem sum_shapeCast {M : Type} [AddCommMonoid M] {s t : Shape} (x : s.Idx → M) (h : s.ShapeCasts t) :
    ∑ j : t.Idx, shapeCast t x h j = ∑ i : s.Idx, x i :=
  Equiv.sum_comp (Shape.reshapeEquiv h) x

/-- Summing an exact add-reduction over all of its indices gives the sum of all entries of the source. -/
theorem sum_reduceAdd {s t : Shape} {axes : List (Fin s.rank)} (h : s.Reduces axes t) (x : s.Idx → EReal) :
    ∑ j : t.Idx, Ideal.reduceAdd h x j = ∑ i : s.Idx, x i := by
  unfold Ideal.reduceAdd
  exact Finset.sum_fiberwise Finset.univ h.drop x

/-- The same for a lane or sublane sum of a kernel body read at the exact values. -/
theorem sum_multiReduction_add {φ : FTy} {s t : Shape} {axes : List (Fin s.rank)} (src : FVec Ideal s φ) (acc : BitVec φ.bits)
    (h : s.Reduces axes t) (hφ : FKind.Formats φ) (hacc : acc = FKind.add.neutral φ hφ) :
    ∑ j : t.Idx, multiReduction .add axes t src acc h hφ hacc j = ∑ i : s.Idx, src i :=
  sum_reduceAdd h src

end Idealize.ShloMosaic.ValueIdx
-- ==== Proof.FemPayload.lean ====
/-
  The squared-difference body, as one number.

  The body takes two [4, 3, 32, 15, 32] blocks a and b, forms (a − b)·(a − b) entry by entry, lays the result out as a
  [5760, 32] matrix, sums each row, then sums the 5760 row sums. Laying out is a re-labelling and each sum adds up a
  fibre of a projection, so the one entry it stores is the sum of (a − b)² over ALL entries — on the extended reals,
  by commutativity and associativity of addition alone.
-/
import proofs.«102066_j2834678415375_1_alg».proof.Proof.Gen.KernelIdeal.Skeleton
import proofs.«102066_j2834678415375_1_alg».proof.Proof.LibSumCasts
import Idealize.ShloMosaic.Lib.Pipeline.Value
import Idealize.ShloMosaic.Lib.ValueIdx

noncomputable section

namespace Cert.KernelIdeal.Fem

open Cert.KernelIdeal Cert.KernelIdeal.Gen Idealize.ShloMosaic Idealize.ShloMosaic.ValueIdx

/-- The sum over every entry of the squared difference of two arrays. -/
def sumSq (a b : S4x3x32x15x32.Idx → EReal) : EReal := ∑ k : S4x3x32x15x32.Idx, (a k - b k) * (a k - b k)

/-- What the body stores, at its one entry, is the sum of squared differences of its two blocks. -/
theorem pay_apply (x0 x1 : FVec Ideal S4x3x32x15x32 .f32) (y : S1x1.Idx) :
    k1_pay1 (F := Ideal) x0 x1 y = sumSq x0 x1 := by
  unfold k1_pay1
  dsimp only
  refine (Ideal.multiReduction_add_total (φ := .f32) _ _ _ (by decide) _ _ _).trans ?_
  refine (sum_shapeCast _ _).trans ?_
  refine (sum_multiReduction_add _ _ _ _ _).trans ?_
  refine (sum_shapeCast _ _).trans ?_
  rw [shapeCast_self, shapeCast_self]
  rfl

end Cert.KernelIdeal.Fem

end
-- ==== Proof.FemArray.lean ====
/-
  The squared-difference region's output array.

  The region has ONE grid point; each input window's block is its whole [4, 3, 32, 15, 32] array (every block index is
  0, so an entry of the block sits at the same coordinates in the array) and the output window's block is the whole
  [1, 1] array. So after the region the output array holds, at its one entry, the sum of squared differences of the two
  input arrays as the region found them.
-/
import proofs.«102066_j2834678415375_1_alg».proof.Proof.Gen.KernelIdeal.Frame
import proofs.«102066_j2834678415375_1_alg».proof.Proof.FemPayload

set_option maxRecDepth 16384

noncomputable section

namespace Cert.KernelIdeal.Fem

open Cert.KernelIdeal Cert.KernelIdeal.Gen Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-- The [1, 1] array whose entry is the sum of squared differences. -/
def femArr (a b : S4x3x32x15x32.Idx → EReal) : S1x1.Idx → EReal := fun _ => sumSq a b

theorem zeros2 : (![0, 0] : Fin 2 → Nat) = fun _ => 0 := funext fun a => by fin_cases a <;> rfl
theorem zeros5 : (![0, 0, 0, 0, 0] : Fin 5 → Nat) = fun _ => 0 := funext fun a => by fin_cases a <;> rfl

/-- Every block index of the three windows is 0 at the one grid point. -/
theorem index_zero : ∀ t : Fin cfg1.N, (∀ a : Fin 5, win1_0.index t a = 0) ∧ (∀ a : Fin 5, win1_1.index t a = 0)
    ∧ (∀ a : Fin 2, win1_2.index t a = 0) :=
  (by decide +kernel : ∀ t : Fin grid1.N, _)

/-- An entry of an input block is the array's entry at the same coordinates. -/
theorem emb_in0 (t : Fin cfg1.N) (k : S4x3x32x15x32.Idx) : ((cfg1.win 0).blk t).view.emb k = k := by
  obtain ⟨h0, -, -⟩ := index_zero t
  funext a; apply Fin.ext
  match a with
  | ⟨0, _⟩ => show win1_0.index t (0 : Fin 5) * 4 + 1 * (k 0).val = (k 0).val; have := h0 0; omega
  | ⟨1, _⟩ => show win1_0.index t (1 : Fin 5) * 3 + 1 * (k 1).val = (k 1).val; have := h0 1; omega
  | ⟨2, _⟩ => show win1_0.index t (2 : Fin 5) * 32 + 1 * (k 2).val = (k 2).val; have := h0 2; omega
  | ⟨3, _⟩ => show win1_0.index t (3 : Fin 5) * 15 + 1 * (k 3).val = (k 3).val; have := h0 3; omega
  | ⟨4, _⟩ => show win1_0.index t (4 : Fin 5) * 32 + 1 * (k 4).val = (k 4).val; have := h0 4; omega

theorem emb_in1 (t : Fin cfg1.N) (k : S4x3x32x15x32.Idx) : ((cfg1.win 1).blk t).view.emb k = k := by
  obtain ⟨-, h1, -⟩ := index_zero t
  funext a; apply Fin.ext
  match a with
  | ⟨0, _⟩ => show win1_1.index t (0 : Fin 5) * 4 + 1 * (k 0).val = (k 0).val; have := h1 0; omega
  | ⟨1, _⟩ => show win1_1.index t (1 : Fin 5) * 3 + 1 * (k 1).val = (k 1).val; have := h1 1; omega
  | ⟨2, _⟩ => show win1_1.index t (2 : Fin 5) * 32 + 1 * (k 2).val = (k 2).val; have := h1 2; omega
  | ⟨3, _⟩ => show win1_1.index t (3 : Fin 5) * 15 + 1 * (k 3).val = (k 3).val; have := h1 3; omega
  | ⟨4, _⟩ => show win1_1.index t (4 : Fin 5) * 32 + 1 * (k 4).val = (k 4).val; have := h1 4; omega

/-- What the grid point writes back is the output block of `femArr` of the two input arrays. -/
theorem flushed_eq (c : Dev nD) (t : Fin cfg1.N) :
    (dat1 V c).flushed 2 t = ((cfg1.win 2).blk t).view.read (Elt Ideal) (femArr (V c main_v13) (V c main_v14)) := by
  show (cfg1.win 2).cut (grid1.coords t) ((dat1 V c).after 2 t) = _
  rw [after1_2]
  unfold out1_2
  rw [View.canon_unit_zero zeros2]
  simp only [View.ld_unit_zero (S := S4x3x32x15x32) zeros5]
  funext y
  show k1_pay1 (iblk1 V c 0 t) (iblk1 V c 1 t) y = sumSq (V c main_v13) (V c main_v14)
  refine (pay_apply _ _ y).trans ?_
  unfold sumSq
  refine Finset.sum_congr rfl fun k _ => ?_
  have e0 : iblk1 V c 0 t k = V c main_v13 k := by
    show V c main_v13 (((cfg1.win 0).blk t).view.emb k) = V c main_v13 k
    rw [emb_in0]
  have e1 : iblk1 V c 1 t k = V c main_v14 k := by
    show V c main_v14 (((cfg1.win 1).blk t).view.emb k) = V c main_v14 k
    rw [emb_in1]
  rw [e0, e1]

/-- An index of the output array is in the grid point's block iff each coordinate is in the block's range. -/
theorem mem_blk (t : Fin cfg1.N) (i : S1x1.Idx) :
    i ∈ ((cfg1.win 2).blk t).view.set ↔ ∀ a : Fin 2, win1_2.index t a * S1x1.size a ≤ (i a).val ∧ (i a).val < win1_2.index t a * S1x1.size a + S1x1.size a := by
  show i ∈ ((View.whole main_v15).slice (win1_2.rect t)).set ↔ _
  rw [View.set_slice_whole, Rect.mem_set_unit]
  exact Iff.rfl

/-- The one block covers the whole [1, 1] array. -/
theorem cover (i : S1x1.Idx) : ∃ t : Fin cfg1.N, (cfg1.win 2).flush t = true ∧ i ∈ ((cfg1.win 2).blk t).view.set := by
  refine ⟨t1_0, flush1_2 t1_0, ?_⟩
  obtain ⟨-, -, h2⟩ := index_zero t1_0
  rw [mem_blk]
  intro a
  match a with
  | ⟨0, _⟩ => show win1_2.index t1_0 (0 : Fin 2) * 1 ≤ (i 0).val ∧ (i 0).val < win1_2.index t1_0 (0 : Fin 2) * 1 + 1; have := h2 0; have hi : (i 0).val < 1 := (i 0).isLt; omega
  | ⟨1, _⟩ => show win1_2.index t1_0 (1 : Fin 2) * 1 ≤ (i 1).val ∧ (i 1).val < win1_2.index t1_0 (1 : Fin 2) * 1 + 1; have := h2 1; have hi : (i 1).val < 1 := (i 1).isLt; omega

/-- THE OUTPUT ARRAY after the region: the sum of squared differences of the two input arrays as the region found them. -/
theorem final (c : Dev nD) : (dat1 V c).arrAt 2 cfg1.N = femArr (V c main_v13) (V c main_v14) :=
  (dat1 V c).arrAt_eq_of_cover 2 _ (fun t _ => flushed_eq V c t) cover

end Cert.KernelIdeal.Fem

end
-- ==== Proof.HostPrefix.lean ====
/-
  The arrays the host prepares, and the loss as the kernel program computes it.

  From the mesh (a [4, 3, 32, 16, 32] array) the top surface y = 15 is cut out and laid out as T : [4, 3, 1024] (batch,
  coordinate, mesh point); from the point cloud ([4, 3, 16384]) the transpose P : [4, 16384, 3] (batch, point, coordinate).
  The points' squared norms are the sums over the coordinate of P·P, kept as a column [4, 16384, 1]; the mesh points'
  squared norms the sums over the coordinate of T·T, kept as a row [4, 1, 1024]. The lower part y < 15 of a mesh is the
  [4, 3, 32, 15, 32] array the squared-difference term compares.
  The loss is  (0 + Σ nearest squared distances) / 65536 + ((Σ squared differences) / 184320) · 1.
-/
import proofs.«102066_j2834678415375_1_alg».proof.Proof.NearestArray
import proofs.«102066_j2834678415375_1_alg».proof.Proof.FemArray

noncomputable section

namespace Cert.KernelIdeal.Whole

open Cert.KernelIdeal Cert.KernelIdeal.Gen Idealize.ShloMosaic Idealize.ShloMosaic.ValueIdx
open Cert.KernelIdeal.Nearest Cert.KernelIdeal.Fem

/-- The point cloud, point-major. -/
def pointsT (a1 : S4x3x16384.Idx → EReal) : S4x16384x3.Idx → EReal :=
  transpose S4x16384x3 [0, 2, 1] a1 transposes_S4x3x16384_S4x16384x3_0_2_1

/-- The mesh's top surface, one column per mesh point. -/
def meshT (a0 : S4x3x32x16x32.Idx → EReal) : S4x3x1024.Idx → EReal :=
  shapeCast S4x3x1024 (shapeCast S4x3x32x32
    (extractStridedSlice S4x3x32x1x32 ![0, 0, 0, 15, 0] a0 slices_S4x3x32x16x32_S4x3x32x1x32_0_0_0_15_0)
    shapeCasts_S4x3x32x1x32_S4x3x32x32) shapeCasts_S4x3x32x32_S4x3x1024

/-- The points' squared norms, as a column per batch. -/
def pointNorms (p : S4x16384x3.Idx → EReal) : S4x16384x1.Idx → EReal :=
  broadcastInDim S4x16384x1 ![0, 1] bcast_S4x16384_S4x16384x1_0_1
    (Host.reduceAdd (F := Ideal) (φ := .f32) (mulf (F := Ideal) (φ := .f32) p p) (constant (F := Ideal) S_ .f32 0x00000000#32)
      reducesTo_S4x16384x3_S4x16384_d2 h_S_)

/-- The mesh points' squared norms, as a row per batch. -/
def meshNorms (t : S4x3x1024.Idx → EReal) : S4x1x1024.Idx → EReal :=
  broadcastInDim S4x1x1024 ![0, 2] bcast_S4x1024_S4x1x1024_0_2
    (Host.reduceAdd (F := Ideal) (φ := .f32) (mulf (F := Ideal) (φ := .f32) t t) (constant (F := Ideal) S_ .f32 0x00000000#32)
      reducesTo_S4x3x1024_S4x1024_d1 h_S_)

/-- The part of a mesh below the top surface. -/
def lower (a : S4x3x32x16x32.Idx → EReal) : S4x3x32x15x32.Idx → EReal :=
  extractStridedSlice S4x3x32x15x32 ![0, 0, 0, 0, 0] a slices_S4x3x32x16x32_S4x3x32x15x32_0_0_0_0_0

/-- The mean of the nearest squared distances, as the host computes it from the first region's output array. -/
def meanOf (d : S4x16384x1.Idx → EReal) : S_.Idx → EReal :=
  Host.divf (F := Ideal) (φ := .f32)
    (Host.reduceAdd (F := Ideal) (φ := .f32) d (constant (F := Ideal) S_ .f32 0x00000000#32) reducesTo_S4x16384x1_S_d0_1_2 h_S_)
    (constant (F := Ideal) S_ .f32 0x47800000#32)

/-- The weighted mean of the squared differences, as the host computes it from the second region's output array. -/
def femOf (s : S1x1.Idx → EReal) : S_.Idx → EReal :=
  mulf (F := Ideal) (φ := .f32)
    (Host.divf (F := Ideal) (φ := .f32) (shapeCast S_ s shapeCasts_S1x1_S_) (constant (F := Ideal) S_ .f32 0x48340000#32))
    (constant (F := Ideal) S_ .f32 0x3F800000#32)

/-- THE LOSS as the kernel program computes it from its three arguments. -/
def loss (a0 : S4x3x32x16x32.Idx → EReal) (a1 : S4x3x16384.Idx → EReal) (a2 : S4x3x32x16x32.Idx → EReal) : S_.Idx → EReal :=
  addf (F := Ideal) (φ := .f32)
    (meanOf (nearestArr (pointsT a1) (meshT a0) (pointNorms (pointsT a1)) (meshNorms (meshT a0))))
    (femOf (femArr (lower a0) (lower a2)))

end Cert.KernelIdeal.Whole

end
-- ==== Proof.KernelResult.lean ====
/-
  The idealized kernel program's result, read down to its arguments.

  The last boundary's contents at the result buffer are the last stretch of host operations applied to what the second
  region left (its one-entry output) and to what the middle stretch computed from the first region's output array; each
  region's output array is one function of the arrays the region was entered with, and those are the first stretch's
  slices, reshapes, transposes and sums of the arguments. Nothing but the regions writes the arguments' buffers, so every
  stage reads the launch contents.
-/
import proofs.«102066_j2834678415375_1_alg».proof.Proof.KernelRun
import proofs.«102066_j2834678415375_1_alg».proof.Proof.HostPrefix
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.SL.Sem Idealize.ShloMosaic.StableHlo
open Cert.KernelIdeal.Nearest Cert.KernelIdeal.Fem

variable (m : (ℓ : Loc nD τ sig) → Buf (Elt Ideal) ℓ) (ρ : Dev nD → PrngReg)

/-! ## What the first region is entered with -/

theorem entry_points (c : Dev nD) : V1 m ρ c main_v3 = pointsT (m ((c.tc : Thread nD τ).loc main_arg1)) := by
  show StableHlo.after hostOps0 (W0 m ρ c) (Proc.devRef .tc main_v3) = _
  after_results
  rfl

theorem entry_mesh (c : Dev nD) : V1 m ρ c main_v2 = meshT (m ((c.tc : Thread nD τ).loc main_arg0)) := by
  show StableHlo.after hostOps0 (W0 m ρ c) (Proc.devRef .tc main_v2) = _
  after_results
  rfl

theorem entry_pointNorms (c : Dev nD) :
    V1 m ρ c main_v6 = pointNorms (pointsT (m ((c.tc : Thread nD τ).loc main_arg1))) := by
  show StableHlo.after hostOps0 (W0 m ρ c) (Proc.devRef .tc main_v6) = _
  after_results
  rfl

theorem entry_meshNorms (c : Dev nD) :
    V1 m ρ c main_v9 = meshNorms (meshT (m ((c.tc : Thread nD τ).loc main_arg0))) := by
  show StableHlo.after hostOps0 (W0 m ρ c) (Proc.devRef .tc main_v9) = _
  after_results
  rfl

/-- After the first region its output array holds the nearest squared distances of the prepared arrays. -/
theorem exit_nearest (c : Dev nD) :
    W2 m ρ c (Proc.devRef .tc main_v10)
      = nearestArr (pointsT (m ((c.tc : Thread nD τ).loc main_arg1))) (meshT (m ((c.tc : Thread nD τ).loc main_arg0)))
          (pointNorms (pointsT (m ((c.tc : Thread nD τ).loc main_arg1)))) (meshNorms (meshT (m ((c.tc : Thread nD τ).loc main_arg0)))) := by
  refine (W2_arr m ρ c 4).trans ((Nearest.final (V1 m ρ) c).trans ?_)
  rw [entry_points, entry_mesh, entry_pointNorms, entry_meshNorms]

/-! ## The arguments as the middle stretch finds them -/

theorem mid_arg0 (c : Dev nD) : W2 m ρ c (Proc.devRef .tc main_arg0) = m ((c.tc : Thread nD τ).loc main_arg0) := by
  refine (W2_of_ne m ρ c main_arg0 (by decide)).trans ?_
  show StableHlo.after hostOps0 (W0 m ρ c) (Proc.devRef .tc main_arg0) = _
  after_results

theorem mid_arg2 (c : Dev nD) : W2 m ρ c (Proc.devRef .tc main_arg2) = m ((c.tc : Thread nD τ).loc main_arg2) := by
  refine (W2_of_ne m ρ c main_arg2 (by decide)).trans ?_
  show StableHlo.after hostOps0 (W0 m ρ c) (Proc.devRef .tc main_arg2) = _
  after_results

/-! ## What the second region is entered with, and what the middle stretch computes -/

theorem entry_lower0 (c : Dev nD) : V3 m ρ c main_v13 = lower (m ((c.tc : Thread nD τ).loc main_arg0)) := by
  show StableHlo.after hostOps1 (W2 m ρ c) (Proc.devRef .tc main_v13) = _
  after_results
  rw [mid_arg0]
  rfl

theorem entry_lower2 (c : Dev nD) : V3 m ρ c main_v14 = lower (m ((c.tc : Thread nD τ).loc main_arg2)) := by
  show StableHlo.after hostOps1 (W2 m ρ c) (Proc.devRef .tc main_v14) = _
  after_results
  rw [mid_arg2]
  rfl

theorem mid_mean (c : Dev nD) :
    W3 m ρ c (Proc.devRef .tc main_v12)
      = meanOf (nearestArr (pointsT (m ((c.tc : Thread nD τ).loc main_arg1))) (meshT (m ((c.tc : Thread nD τ).loc main_arg0)))
          (pointNorms (pointsT (m ((c.tc : Thread nD τ).loc main_arg1)))) (meshNorms (meshT (m ((c.tc : Thread nD τ).loc main_arg0))))) := by
  show StableHlo.after hostOps1 (W2 m ρ c) (Proc.devRef .tc main_v12) = _
  after_results
  rw [exit_nearest]
  rfl

/-- After the second region its output array holds the sum of squared differences of the two lower meshes. -/
theorem exit_fem (c : Dev nD) :
    W4 m ρ c (Proc.devRef .tc main_v15)
      = femArr (lower (m ((c.tc : Thread nD τ).loc main_arg0))) (lower (m ((c.tc : Thread nD τ).loc main_arg2))) := by
  refine (W4_arr m ρ c 2).trans ((Fem.final (V3 m ρ) c).trans ?_)
  rw [entry_lower0, entry_lower2]

/-! ## The result -/

/-- THE RESULT BUFFER at the last boundary is the loss of the three arguments' launch contents. -/
theorem result_eq (c : Dev nD) :
    W5 m ρ c (Proc.devRef .tc main_v19)
      = loss (m ((c.tc : Thread nD τ).loc main_arg0)) (m ((c.tc : Thread nD τ).loc main_arg1)) (m ((c.tc : Thread nD τ).loc main_arg2)) := by
  show StableHlo.after hostOps2 (W4 m ρ c) (Proc.devRef .tc main_v19) = _
  after_results
  rw [exit_fem, W4_of_ne m ρ c main_v12 (by decide), mid_mean]
  rfl

/-- Every weakly fair execution of the idealized kernel program terminates, nothing faulting, with the result at the loss
    of its arguments and the arguments as launched. -/
theorem run_value : θ_run defs (onTc (τ := τ) (main (F := Ideal))) ⟨m, fun _ => 0, ρ⟩ (fun r => ∀ c : Dev nD,
      r.2.mem ((c.tc : Thread nD τ).loc main_v19)
        = loss (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (result_eq m ρ c), (h c).2⟩) (run_result m ρ)

end Cert.KernelIdeal.Whole

end
-- ==== Proof.Bridge.lean ====
/-
  The reference's result is the kernel program's loss.

  The reference forms, for every batch b, point p and mesh point n, the same expanded squared distance
    (pn b p + tn b n) − 2 · Σ_k P b p k · Tᵀ b n k
  — its three-term sum is (P b p 0 · T b 0 n + P b p 1 · T b 1 n) + P b p 2 · T b 2 n, and its mesh norms, summed over the
  last axis of the transposed mesh, are the kernel program's, summed over the middle axis of the mesh —, takes the minimum
  over n from +∞, sums over (b, p) and divides by 65536; and it sums the squared differences of the two lower meshes over
  all five axes at once and divides by 184320. Only re-indexing and the commutative-monoid laws of + are used: no
  finiteness of the inputs is needed.
-/
import proofs.«102066_j2834678415375_1_alg».proof.Proof.HostPrefix
import proofs.«102066_j2834678415375_1_alg».proof.Proof.Gen.ReferenceIdeal.Read
import Idealize.ShloMosaic.PureOps.Ideal.Laws
import Idealize.ShloMosaic.Lib.Pipeline.Value

set_option maxRecDepth 16384

noncomputable section

namespace Cert.Bridge

open Idealize.ShloMosaic Idealize.ShloMosaic.ValueIdx
open Cert.KernelIdeal.Whole Cert.KernelIdeal.Nearest Cert.KernelIdeal.Fem
open Cert.ReferenceIdeal.Read

variable (x0 : (⟨Cert.ReferenceIdeal.S4x3x32x16x32, .f32⟩ : BufTy).Contents (Elt Ideal))
variable (x1 : (⟨Cert.ReferenceIdeal.S4x3x16384, .f32⟩ : BufTy).Contents (Elt Ideal))
variable (x2 : (⟨Cert.ReferenceIdeal.S4x3x32x16x32, .f32⟩ : BufTy).Contents (Elt Ideal))

/-! ## The stages the two programs share, by definition -/

theorem ref_points : val_main_v5 (F := Ideal) x1 = pointsT x1 := rfl
theorem ref_mesh : val_main_v2 (F := Ideal) x0 = meshT x0 := rfl
theorem ref_pointNorms : val_main_v8 (F := Ideal) x1 = pointNorms (pointsT x1) := rfl
theorem ref_lower0 : val_main_v4 (F := Ideal) x0 = lower x0 := rfl
theorem ref_lower2 : val_main_v20 (F := Ideal) x2 = lower x2 := rfl

/-! ## The mesh points' squared norms, on either side, are the sum over the coordinate of the squares -/

/-- The kernel program's: the middle axis of the mesh summed. -/
theorem meshNorms_apply (t : Cert.KernelIdeal.S4x3x1024.Idx → EReal) (b : Fin 4) (u : Fin 1) (n : Fin 1024) :
    meshNorms t (ix3 b u n) = Ideal.ofBits .f32 0x00000000#32 + ∑ k : Fin 3, t (ix3 b k n) * t (ix3 b k n) := by
  unfold meshNorms
  refine (broadcastInDim_apply _ Cert.KernelIdeal.Gen.bcast_S4x1024_S4x1x1024_0_2 _ (ix3 b u n) (ix2 b n) (fun a => match a with
    | ⟨0, _⟩ => by show b.val = if (4 : Nat) = 1 then 0 else b.val; rw [if_neg (by decide)]
    | ⟨1, _⟩ => by show n.val = if (1024 : Nat) = 1 then 0 else n.val; rw [if_neg (by decide)])).trans ?_
  simp only [Host.reduceAdd, Ideal.hostReduceAdd_def]
  rw [Ideal.hostReduceAdd_single Cert.KernelIdeal.Gen.reducesTo_S4x3x1024_S4x1024_d1 (by decide)]
  refine congrArg (_ + ·) (Finset.sum_congr rfl fun k _ => ?_)
  have e : (show Cert.KernelIdeal.S4x3x1024.Reduces [1] Cert.KernelIdeal.S4x1024 from by decide).lift (ix2 b n) k = ix3 b k n :=
    funext fun a => Fin.ext (by match a with | ⟨0, _⟩ => rfl | ⟨1, _⟩ => rfl | ⟨2, _⟩ => rfl)
  show t _ * t _ = _
  rw [e]
  rfl

/-- The reference's: the last axis of the transposed mesh summed. -/
theorem ref_meshNorms_apply (b : Fin 4) (u : Fin 1) (n : Fin 1024) :
    val_main_v11 (F := Ideal) x0 (ix3 b u n)
      = Ideal.ofBits .f32 0x00000000#32 + ∑ k : Fin 3, meshT x0 (ix3 b k n) * meshT x0 (ix3 b k n) := by
  rw [val_main_v11_apply, val_main_v10_apply]
  refine congrArg₂ (· + ·) rfl (Finset.sum_congr rfl fun k _ => ?_)
  rw [val_main_v9_apply, val_main_v3_apply]
  show val_main_v2 (F := Ideal) x0 _ * val_main_v2 (F := Ideal) x0 _ = _
  rw [ref_mesh]
  have e : idx_main_v3 (idx_main_v10 (idx_main_v11 (ix3 b u n)) k) = ix3 b k n :=
    funext fun a => Fin.ext (by match a with | ⟨0, _⟩ => rfl | ⟨1, _⟩ => rfl | ⟨2, _⟩ => rfl)
  rw [e]

/-! ## The expanded squared distance and its minimum over the mesh points -/

/-- The reference's table of expanded squared distances, entry by entry, is the kernel program's. -/
theorem ref_sq (b : Fin 4) (p : Fin 16384) (n : Fin 1024) :
    val_main_v18 (F := Ideal) x0 x1 (ix3 b p n)
      = sqArr (pointsT x1) (meshT x0) (pointNorms (pointsT x1)) (meshNorms (meshT x0)) b p n := by
  rw [val_main_v18_apply, val_main_v14_apply, val_main_v17_apply, val_main_v12_apply, val_main_v13_apply, val_main_v16_apply,
    val_main_v15_apply, val_main_cst_1_apply, Fin.sum_univ_three]
  unfold sqArr
  have e12 : idx_main_v12 (ix3 b p n) = ix3 b p (0 : Fin 1) :=
    funext fun a => Fin.ext (by match a with | ⟨0, _⟩ => rfl | ⟨1, _⟩ => rfl | ⟨2, _⟩ => rfl)
  have e13 : idx_main_v13 (ix3 b p n) = ix3 b (0 : Fin 1) n :=
    funext fun a => Fin.ext (by match a with | ⟨0, _⟩ => rfl | ⟨1, _⟩ => rfl | ⟨2, _⟩ => rfl)
  have el : ∀ k : Fin 3, lidx_main_v15 (ix3 b p n) k = ix3 b p k := fun k =>
    funext fun a => Fin.ext (by match a with | ⟨0, _⟩ => rfl | ⟨1, _⟩ => rfl | ⟨2, _⟩ => rfl)
  have er : ∀ k : Fin 3, val_main_v3 (F := Ideal) x0 (ridx_main_v15 (ix3 b p n) k) = meshT x0 (ix3 b k n) := fun k => by
    rw [val_main_v3_apply, ref_mesh]
    exact congrArg (meshT x0) (funext fun a => Fin.ext (by match a with | ⟨0, _⟩ => rfl | ⟨1, _⟩ => rfl | ⟨2, _⟩ => rfl))
  rw [e12, e13, el, el, el, er, er, er, ref_pointNorms, ref_points, ref_meshNorms_apply, meshNorms_apply]
  rfl

/-- Row (b, p) of a [4, 16384, 1024] table with column `n` put back is entry (b, p, n). -/
theorem lift_col (b : Fin 4) (p : Fin 16384) (n : Fin 1024) :
    (show Cert.ReferenceIdeal.S4x16384x1024.Reduces [2] Cert.ReferenceIdeal.S4x16384 from by decide).lift (ix2 b p) n = ix3 b p n :=
  funext fun a => Fin.ext (by match a with | ⟨0, _⟩ => rfl | ⟨1, _⟩ => rfl | ⟨2, _⟩ => rfl)

/-- The reference's minimum over the mesh points, at (b, p), is the kernel program's nearest squared distance. -/
theorem ref_nearest (b : Fin 4) (p : Fin 16384) :
    val_main_v19 (F := Ideal) x0 x1 (ix2 b p)
      = nearest (pointsT x1) (meshT x0) (pointNorms (pointsT x1)) (meshNorms (meshT x0)) b p := by
  unfold val_main_v19
  refine (Host.reduce_eq_fold_single FloatOps.minimumf _ _ Cert.ReferenceIdeal.Gen.reducesTo_S4x16384x1024_S4x16384_d2
    (by decide) Cert.ReferenceIdeal.Gen.h_S_ (ix2 b p)).trans ?_
  unfold nearest
  exact congrArg (fun f => Finset.fold min (Ideal.ofBits .f32 0x7F800000#32) f (Finset.univ : Finset (Fin 1024)))
    (funext fun (n : Fin 1024) => (congrArg (val_main_v18 (F := Ideal) x0 x1) (lift_col b p n)).trans (ref_sq x0 x1 b p n))

/-! ## The two sums -/

/-- The indices of a [4, 16384, 1] array are those of a [4, 16384] array with the unit coordinate put behind. -/
def dropUnit : Cert.KernelIdeal.S4x16384x1.Idx ≃ Cert.ReferenceIdeal.S4x16384.Idx where
  toFun i := ix2 (⟨(i 0).val, (i 0).isLt⟩ : Fin 4) (⟨(i 1).val, (i 1).isLt⟩ : Fin 16384)
  invFun j := ix3 (⟨(j 0).val, (j 0).isLt⟩ : Fin 4) (⟨(j 1).val, (j 1).isLt⟩ : Fin 16384) (0 : Fin 1)
  left_inv i := funext fun a => Fin.ext (by
    match a with
    | ⟨0, _⟩ => rfl
    | ⟨1, _⟩ => rfl
    | ⟨2, _⟩ => show (0 : Fin 1).val = (i 2).val; have h : (i 2).val < 1 := (i 2).isLt; have : ((0 : Fin 1) : Nat) = 0 := rfl; omega)
  right_inv j := funext fun a => Fin.ext (by match a with | ⟨0, _⟩ => rfl | ⟨1, _⟩ => rfl)

/-- The nearest squared distances and the reference's minima have the same total. -/
theorem sum_nearest :
    ∑ j : Cert.KernelIdeal.S4x16384x1.Idx, nearestArr (pointsT x1) (meshT x0) (pointNorms (pointsT x1)) (meshNorms (meshT x0)) j
      = ∑ j : Cert.ReferenceIdeal.S4x16384.Idx, val_main_v19 (F := Ideal) x0 x1 j :=
  Fintype.sum_equiv dropUnit _ _ fun i => (ref_nearest x0 x1 ⟨(i 0).val, (i 0).isLt⟩ ⟨(i 1).val, (i 1).isLt⟩).symm

/-- The mean of the nearest squared distances is the reference's. -/
theorem mean_eq :
    meanOf (nearestArr (pointsT x1) (meshT x0) (pointNorms (pointsT x1)) (meshNorms (meshT x0))) = val_main_v26 (F := Ideal) x0 x1 := by
  have hA : Host.reduceAdd (F := Ideal) (φ := .f32)
      (nearestArr (pointsT x1) (meshT x0) (pointNorms (pointsT x1)) (meshNorms (meshT x0)))
      (constant (F := Ideal) Cert.KernelIdeal.S_ .f32 0x00000000#32) Cert.KernelIdeal.Gen.reducesTo_S4x16384x1_S_d0_1_2 Cert.KernelIdeal.Gen.h_S_
      = val_main_v25 (F := Ideal) x0 x1 := by
    funext i
    rw [val_main_v25_apply, ← sum_nearest]
    simp only [Host.reduceAdd, Ideal.hostReduceAdd_def]
    exact Ideal.hostReduceAdd_total Cert.KernelIdeal.Gen.reducesTo_S4x16384x1_S_d0_1_2 (fun b => b.elim0) _ _ i
  unfold meanOf val_main_v26
  rw [hA]
  rfl

/-- The weighted mean of the squared differences is the reference's. -/
theorem fem_eq : femOf (femArr (lower x0) (lower x2)) = val_main_v27 (F := Ideal) x0 x2 := by
  have hB : shapeCast Cert.KernelIdeal.S_ (femArr (lower x0) (lower x2)) Cert.KernelIdeal.Gen.shapeCasts_S1x1_S_
      = val_main_v23 (F := Ideal) x0 x2 := by
    funext i
    rw [val_main_v23_apply]
    show sumSq (lower x0) (lower x2) = Ideal.ofBits .f32 0x00000000#32 + _
    rw [Ideal.ofBits_zero_f32, zero_add]
    rfl
  unfold femOf val_main_v27 val_main_v24
  rw [hB]
  rfl

/-- THE REFERENCE'S RESULT STAGE is the kernel program's loss of the same three arrays. -/
theorem ref_eq_loss : val_main_v28 (F := Ideal) x0 x1 x2 = loss x0 x1 x2 := by
  unfold loss val_main_v28
  rw [mean_eq, fem_eq]

end Cert.Bridge

end
-- ==== Proof.lean ====
/-
  A mesh loss: the mean, over 4 batches of 16384 points, of each point's least squared distance to the 1024 points of the
  mesh's top surface, plus the mean squared difference of two meshes below the top surface.

  The kernel program computes the first term in a gridded region (for each run of 1024 points of a batch: the expanded
  squared distance  ‖p‖² + ‖t‖² − 2·(p₀t₀ + p₁t₁ + p₂t₂)  to every mesh point, then the minimum over the mesh points from
  +∞), sums the minima on the host and divides by 65536; and the second in a one-point region (square the differences,
  lay them out as 5760 rows of 32, sum each row, sum the row sums), divided on the host by 184320 and multiplied by 1.
  The reference computes the same expanded squared distances with one batched dot product, takes the same minima, and sums
  the squared differences over all axes at once.

  At the exact (extended-real) values the two results are the same number: the dot product's three-term sum is the kernel's
  three products added left to right; the mesh points' squared norms are the same sums over the coordinate, taken along
  the middle axis of the mesh or the last axis of its transpose; both minima are the same fold of `min` from +∞ over the
  same 1024 entries; and a sum of row sums is the sum of all entries. Only re-indexing and the commutative-monoid laws of
  addition are used, so the inputs' finiteness is never needed. The ideal pass rewrote nothing, so `preserves` is trivial.

  The three frames: the two kernel programs' are the generated frame certificates; the reference has no kernel and its
  frame is its generated run with the result dropped. The kernel program's value is read off its run through the two
  regions' output arrays (Proof/KernelRun, NearestPayload, NearestArray, FemPayload, FemArray, HostPrefix, KernelResult);
  the reference's off its generated run and read-at-an-index lemmas (Proof/Bridge).
-/
import proofs.«102066_j2834678415375_1_alg».proof.Defs
import proofs.«102066_j2834678415375_1_alg».proof.Proof.Gen.Kernel
import proofs.«102066_j2834678415375_1_alg».proof.Proof.Gen.Kernel.Skeleton
import proofs.«102066_j2834678415375_1_alg».proof.Proof.Gen.Kernel.Launch
import proofs.«102066_j2834678415375_1_alg».proof.Proof.Gen.Kernel.Points
import proofs.«102066_j2834678415375_1_alg».proof.Proof.Gen.Kernel.Frame
import proofs.«102066_j2834678415375_1_alg».proof.Proof.Gen.KernelIdeal
import proofs.«102066_j2834678415375_1_alg».proof.Proof.Gen.KernelIdeal.Skeleton
import proofs.«102066_j2834678415375_1_alg».proof.Proof.Gen.KernelIdeal.Launch
import proofs.«102066_j2834678415375_1_alg».proof.Proof.Gen.KernelIdeal.Points
import proofs.«102066_j2834678415375_1_alg».proof.Proof.Gen.KernelIdeal.Frame
import proofs.«102066_j2834678415375_1_alg».proof.Proof.Gen.ReferenceIdeal
import proofs.«102066_j2834678415375_1_alg».proof.Proof.Gen.ReferenceIdeal.Run
import proofs.«102066_j2834678415375_1_alg».proof.Proof.Gen.ReferenceIdeal.Read
import proofs.«102066_j2834678415375_1_alg».proof.Proof.Gen.Pre_finite_inputs
import proofs.«102066_j2834678415375_1_alg».proof.Proof.KernelResult
import proofs.«102066_j2834678415375_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the three arguments both programs end with the loss of those arguments. -/
theorem algebraic : Cert.algebraic_KernelIdeal_ReferenceIdeal := by
  intro m ρ m' ρ' _ hagree
  refine ⟨fun c => Cert.KernelIdeal.Whole.loss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Whole.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, Cert.Bridge.ref_eq_loss, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
